-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1280000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S100000x1 : Shape := ⟨2, ![100000, 1]⟩
abbrev S1280000x64 : Shape := ⟨2, ![1280000, 64]⟩
abbrev S128x64 : Shape := ⟨2, ![128, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 60
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .f32⟩
  | .hbm, ⟨13, _⟩ => ⟨S1280000x1, .f32⟩
  | .hbm, ⟨14, _⟩ => ⟨S_, .f32⟩
  | .hbm, ⟨15, _⟩ => ⟨S100000x1, .f32⟩
  | .hbm, ⟨16, _⟩ => ⟨S1280000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000x64, .f32⟩
  | .hbm, ⟨33, _⟩ => ⟨S_, .f32⟩
  | .hbm, ⟨34, _⟩ => ⟨S100000x64, .f32⟩
  | .hbm, ⟨35, _⟩ => ⟨S1280000x1, .i32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S128x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1280000, .i32⟩
  | .hbm, ⟨44, _⟩ => ⟨S1280000, .i1⟩
  | .hbm, ⟨45, _⟩ => ⟨S_, .i32⟩
  | .hbm, ⟨46, _⟩ => ⟨S1280000, .i32⟩
  | .hbm, ⟨47, _⟩ => ⟨S1280000, .i32⟩
  | .hbm, ⟨48, _⟩ => ⟨S1280000, .i32⟩
  | .hbm, ⟨49, _⟩ => ⟨S1280000x1, .i32⟩
  | .hbm, ⟨50, _⟩ => ⟨S1280000x64, .f32⟩
  | .hbm, ⟨51, _⟩ => ⟨S_, .f32⟩
  | .hbm, ⟨52, _⟩ => ⟨S100000x64, .f32⟩
  | .hbm, ⟨53, _⟩ => ⟨S1280000x1, .i32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S128x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000x1 : S_.BroadcastsInDim S1280000x1 (![] : Fin 0 → Fin S1280000x1.rank)
  bcast_S_S100000x1 : S_.BroadcastsInDim S100000x1 (![] : Fin 0 → Fin S100000x1.rank)
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S_S100000x64 : S_.BroadcastsInDim S100000x64 (![] : Fin 0 → Fin S100000x64.rank)
  transposes_S64x64_S64x64_1_0 : S64x64.Transposes [1, 0] S64x64
  concatenates_S64x64_S64x64_S128x64_d0 : Shape.Concatenates [S64x64, S64x64] S128x64 0
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x1_S1280000x1_S1280000x1_1_0_0_1_wf : ScatterDims.WF S100000x1 S1280000x1 S1280000x1 [1] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S1280000x1, .i32⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S_, .f32⟩
  | .hbm, ⟨26, _⟩ => ⟨S1280000x1, .f32⟩
  | .hbm, ⟨27, _⟩ => ⟨S_, .f32⟩
  | .hbm, ⟨28, _⟩ => ⟨S100000x1, .f32⟩
  | .hbm, ⟨29, _⟩ => ⟨S1280000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1280000, .i32⟩
  | .hbm, ⟨49, _⟩ => ⟨S1280000, .i1⟩
  | .hbm, ⟨50, _⟩ => ⟨S_, .i32⟩
  | .hbm, ⟨51, _⟩ => ⟨S1280000, .i32⟩
  | .hbm, ⟨52, _⟩ => ⟨S1280000, .i32⟩
  | .hbm, ⟨53, _⟩ => ⟨S1280000, .i32⟩
  | .hbm, ⟨54, _⟩ => ⟨S1280000x1, .i32⟩
  | .hbm, ⟨55, _⟩ => ⟨S1280000x64, .f32⟩
  | .hbm, ⟨56, _⟩ => ⟨S_, .f32⟩
  | .hbm, ⟨57, _⟩ => ⟨S100000x64, .f32⟩
  | .hbm, ⟨58, _⟩ => ⟨S1280000x1, .i32⟩
  | .hbm, ⟨59, _⟩ => ⟨S100000x64, .f32⟩
  | .hbm, ⟨60, _⟩ => ⟨S_, .f32⟩
  | .hbm, ⟨61, _⟩ => ⟨S1280000x1, .f32⟩
  | .hbm, ⟨62, _⟩ => ⟨S_, .f32⟩
  | .hbm, ⟨63, _⟩ => ⟨S100000x1, .f32⟩
  | .hbm, ⟨64, _⟩ => ⟨S1280000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S64x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S1280000x1 : S_.BroadcastsInDim S1280000x1 (![] : Fin 0 → Fin S1280000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000x1_S1280000x1_S1280000x1_1_0_0_1_wf : ScatterDims.WF S100000x1 S1280000x1 S1280000x1 [1] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run, with its result named.

  The program is a stretch of host operations, a first grid of twenty blocks, a second stretch of host
  operations and a second grid of twenty blocks.  The contents of every buffer at the four boundaries are a
  fold through the program: after a host stretch, the stretch's operations applied to what was there; after
  a grid, each of its arrays at what the write-backs of its blocks leave and every other buffer untouched.
  Every weakly fair execution terminates, and at the end every buffer that outlives the grids holds the last
  boundary's contents: in particular the result array holds what the second grid's write-backs leave, and
  the eight argument arrays hold what they were launched with.
-/
import proofs.«137777_j1271310319672_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing
    faulting; the result array ends at the last boundary's contents and each argument array as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Net

end
-- ==== Proof.Sage.lean ====
/-
  Two arrangements of one graph-convolution layer with mean aggregation, over the extended reals, and
  the two-layer network built from either.

  A layer takes, per node r, the summed neighbour features s(r, ·), the node's own features x(r, ·), and a
  divisor c(r) (the neighbour count, at least one).  The first arrangement divides the sum by the count,
  multiplies by one weight matrix, adds a bias, and adds the product of the node's own features with a second
  weight matrix:  ((∑ₖ (s(r,k) / c(r)) · Wl(j,k)) + b(j)) + ∑ₖ x(r,k) · Wr(j,k).
  The second arrangement multiplies the sum by a reciprocal held per node, lays the scaled sum and the
  node's own features side by side as one row of 128 entries, multiplies that row by the two weight
  matrices stacked as one 128 × 64 matrix, and adds the bias held as a one-row matrix:
  (∑_{k<128} [s(r,·)·iv(r) ‖ x(r,·)](k) · Wc(k,j)) + B(0,j).
  Both are stated row by row for any number of rows, so the same definition serves a block of rows and the
  whole array.
-/
import Idealize.ShloMosaic.Lib.ValueIdx
import Idealize.ShloMosaic.PureOps.Ideal.Laws

noncomputable section

open scoped BigOperators

namespace Cert.Sage

open Idealize.ShloMosaic Idealize.ShloMosaic.ValueIdx

/-- An a × b array of extended reals. -/
abbrev Mat (a b : Nat) : Type := (⟨2, ![a, b]⟩ : Shape).Idx → EReal
/-- A length-a array of extended reals. -/
abbrev Arr (a : Nat) : Type := (⟨1, ![a]⟩ : Shape).Idx → EReal

/-- The f32 word of zero, as it denotes: the lower bound a rectifier clamps to. -/
abbrev zeroWord : EReal := Ideal.ofBits .f32 0x00000000#32

/-- Entry j of one node's output in the divide-then-two-products arrangement. -/
def combineAt (s x : Fin 64 → EReal) (c : EReal) (Wl Wr : Mat 64 64) (b : Arr 64) (j : Fin 64) : EReal :=
  ((∑ k : Fin 64, Ideal.div (s k) c * Wl (ix2 j k)) + b (ix1 j)) + ∑ k : Fin 64, x k * Wr (ix2 j k)

/-- A layer in the divide-then-two-products arrangement, on n nodes. -/
def layer {n : Nat} (S X : Mat n 64) (c : Mat n 1) (Wl Wr : Mat 64 64) (b : Arr 64) : Mat n 64 :=
  fun i => combineAt (fun k => S (ix2 (i 0 : Fin n) k)) (fun k => X (ix2 (i 0 : Fin n) k))
    (c (ix2 (i 0 : Fin n) (0 : Fin 1))) Wl Wr b (i 1 : Fin 64)

/-- The row of 128 entries: the scaled sum, then the node's own features. -/
def sideBySide (s x : Fin 64 → EReal) (iv : EReal) (k : Fin 128) : EReal :=
  if h : k.val < 64 then s ⟨k.val, h⟩ * iv else x ⟨k.val - 64, by have := k.isLt; omega⟩

/-- Entry j of one node's output in the scale-then-one-product arrangement. -/
def fusedAt (s x : Fin 64 → EReal) (iv : EReal) (Wc : Mat 128 64) (B : Mat 1 64) (j : Fin 64) : EReal :=
  (∑ k : Fin 128, sideBySide s x iv k * Wc (ix2 k j)) + B (ix2 (0 : Fin 1) j)

/-- A layer in the scale-then-one-product arrangement, on n nodes. -/
def fused {n : Nat} (S : Mat n 64) (iv : Mat n 1) (X : Mat n 64) (Wc : Mat 128 64) (B : Mat 1 64) : Mat n 64 :=
  fun i => fusedAt (fun k => S (ix2 (i 0 : Fin n) k)) (fun k => X (ix2 (i 0 : Fin n) k))
    (iv (ix2 (i 0 : Fin n) (0 : Fin 1))) Wc B (i 1 : Fin 64)

/-- The rectifier: the larger of an entry and the zero word. -/
def rect {n : Nat} (Y : Mat n 64) : Mat n 64 := fun i => max (Y i) zeroWord

/-- Two layers, a rectifier between them, in the divide-then-two-products arrangement; `agg` is the
    neighbour sum as a function of the node features, `c` the divisor. -/
def net {n : Nat} (agg : Mat n 64 → Mat n 64) (c : Mat n 1) (x : Mat n 64)
    (W1l W1r W2l W2r : Mat 64 64) (b1 b2 : Arr 64) : Mat n 64 :=
  layer (agg (rect (layer (agg x) x c W1l W1r b1))) (rect (layer (agg x) x c W1l W1r b1)) c W2l W2r b2

/-- The same two layers in the scale-then-one-product arrangement. -/
def fusedNet {n : Nat} (agg : Mat n 64 → Mat n 64) (iv : Mat n 1) (x : Mat n 64)
    (Wc1 Wc2 : Mat 128 64) (B1 B2 : Mat 1 64) : Mat n 64 :=
  fused (agg (rect (fused (agg x) iv x Wc1 B1))) iv (rect (fused (agg x) iv x Wc1 B1)) Wc2 B2

theorem layer_apply {n : Nat} (S X : Mat n 64) (c : Mat n 1) (Wl Wr : Mat 64 64) (b : Arr 64) (r : Fin n) (j : Fin 64) :
    layer S X c Wl Wr b (ix2 r j)
      = combineAt (fun k => S (ix2 r k)) (fun k => X (ix2 r k)) (c (ix2 r (0 : Fin 1))) Wl Wr b j := rfl

theorem fused_apply {n : Nat} (S : Mat n 64) (iv : Mat n 1) (X : Mat n 64) (Wc : Mat 128 64) (B : Mat 1 64)
    (r : Fin n) (j : Fin 64) :
    fused S iv X Wc B (ix2 r j)
      = fusedAt (fun k => S (ix2 r k)) (fun k => X (ix2 r k)) (iv (ix2 r (0 : Fin 1))) Wc B j := rfl

theorem rect_apply {n : Nat} (Y : Mat n 64) (i : (⟨2, ![n, 64]⟩ : Shape).Idx) : rect Y i = max (Y i) zeroWord := rfl

end Cert.Sage

end
-- ==== Proof.SageRows.lean ====
/-
  A layer's entry depends on one row.

  In the scale-then-one-product arrangement the entry (r, j) of a layer reads row r of the summed features,
  entry r of the reciprocal column, row r of the node's own features, column j of the stacked weights and
  entry j of the bias row, and nothing else.  So two layers over arrays of different heights agree at (r, j)
  and (r', j) as soon as those rows and columns agree: a block of rows of the array computes the array's
  own entries.  The rectifier, being entrywise, keeps this.
-/
import proofs.«137777_j1271310319672_2_alg».proof.Proof.Sage

noncomputable section

open scoped BigOperators

namespace Cert.Sage

open Idealize.ShloMosaic Idealize.ShloMosaic.ValueIdx

/-- Two scale-then-one-product layers agree at (r, j) and (r', j) when the rows r and r' of their row-wise
    operands agree and their weights and bias agree in column j. -/
theorem fused_rows {n n' : Nat} (S : Mat n 64) (iv : Mat n 1) (X : Mat n 64) (Wc : Mat 128 64) (B : Mat 1 64)
    (S' : Mat n' 64) (iv' : Mat n' 1) (X' : Mat n' 64) (Wc' : Mat 128 64) (B' : Mat 1 64)
    (r : Fin n) (r' : Fin n') (j : Fin 64)
    (hS : ∀ k : Fin 64, S (ix2 r k) = S' (ix2 r' k))
    (hiv : iv (ix2 r (0 : Fin 1)) = iv' (ix2 r' (0 : Fin 1)))
    (hX : ∀ k : Fin 64, X (ix2 r k) = X' (ix2 r' k))
    (hW : ∀ k : Fin 128, Wc (ix2 k j) = Wc' (ix2 k j))
    (hB : B (ix2 (0 : Fin 1) j) = B' (ix2 (0 : Fin 1) j)) :
    fused S iv X Wc B (ix2 r j) = fused S' iv' X' Wc' B' (ix2 r' j) := by
  rw [fused_apply, fused_apply, show (fun k => S (ix2 r k)) = fun k => S' (ix2 r' k) from funext hS,
    show (fun k => X (ix2 r k)) = fun k => X' (ix2 r' k) from funext hX, hiv]
  unfold fusedAt
  rw [hB]
  exact congrArg (· + B' (ix2 (0 : Fin 1) j)) (Finset.sum_congr rfl fun k _ => by rw [hW k])

/-- The same with a rectifier after the layer. -/
theorem rect_fused_rows {n n' : Nat} (S : Mat n 64) (iv : Mat n 1) (X : Mat n 64) (Wc : Mat 128 64) (B : Mat 1 64)
    (S' : Mat n' 64) (iv' : Mat n' 1) (X' : Mat n' 64) (Wc' : Mat 128 64) (B' : Mat 1 64)
    (r : Fin n) (r' : Fin n') (j : Fin 64)
    (hS : ∀ k : Fin 64, S (ix2 r k) = S' (ix2 r' k))
    (hiv : iv (ix2 r (0 : Fin 1)) = iv' (ix2 r' (0 : Fin 1)))
    (hX : ∀ k : Fin 64, X (ix2 r k) = X' (ix2 r' k))
    (hW : ∀ k : Fin 128, Wc (ix2 k j) = Wc' (ix2 k j))
    (hB : B (ix2 (0 : Fin 1) j) = B' (ix2 (0 : Fin 1) j)) :
    rect (fused S iv X Wc B) (ix2 r j) = rect (fused S' iv' X' Wc' B') (ix2 r' j) := by
  rw [rect_apply, rect_apply, fused_rows S iv X Wc B S' iv' X' Wc' B' r r' j hS hiv hX hW hB]

end Cert.Sage

end
-- ==== Proof.Region.lean ====
/-
  What each grid leaves in its output array: blocks of rows of one whole-array function.

  Each of the two grids has twenty points.  Point t reads rows 5000·t … 5000·t + 4999 of the summed
  features, of the reciprocal column and of the node features, the whole stacked weight matrix and the
  whole bias row, and writes rows 5000·t … 5000·t + 4999 of its output.  A layer's entry (r, j) depends
  only on row r of the row-wise operands, so what point t writes back is exactly its block of rows of the
  layer computed on the whole arrays; the twenty blocks tile the 100000 rows, so after the grid the output
  array is that layer of the arrays the grid found on entry.  The first grid's body ends in a rectifier,
  the second's does not.
-/
import proofs.«137777_j1271310319672_2_alg».proof.Proof.Gen.KernelIdeal.Frame
import proofs.«137777_j1271310319672_2_alg».proof.Proof.SageRows
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents a grid finds on entry
variable (V : (c : Dev nD) → (b : Ref sig .tc) → Buf (Elt Ideal) ((c : Thread nD τ).loc b))

theorem zero_off : (![0, 0] : Fin 2 → Nat) = fun _ => 0 := funext fun a => by fin_cases a <;> rfl

/-! ## The first grid -/

/-- The layer, rectified, of the arrays the first grid finds on entry. -/
def whole0 (c : Dev nD) : Cert.Sage.Mat 100000 64 :=
  Cert.Sage.rect (Cert.Sage.fused (n := 100000) (V c main_v21) (V c main_v11) (V c main_arg0) (V c main_v24) (V c main_v25))

/-- Where each window's block sits at point t: the row-wise windows and the output at block row t, the
    weights and the bias at the origin. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is its block of rows of `whole0`. -/
theorem flushed0
    (hpay : ∀ (x0 : Vec Ideal S5000x64 .f32) (x1 : Vec Ideal S5000x1 .f32) (x2 : Vec Ideal S5000x64 .f32)
      (x3 : Vec Ideal S128x64 .f32) (x4 : Vec Ideal S1x64 .f32),
      k0_pay1 (F := Ideal) x0 x1 x2 x3 x4 = Cert.Sage.rect (Cert.Sage.fused (n := 5000) x0 x1 x2 x3 x4))
    (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero zero_off]
  simp only [View.ld_unit_zero (S := S5000x64) zero_off, View.ld_unit_zero (S := S5000x1) zero_off,
    View.ld_unit_zero (S := S128x64) zero_off, View.ld_unit_zero (S := S1x64) zero_off]
  rw [hpay]
  obtain ⟨e00, e01, e10, e11, e20, e21, e30, e31, e40, e41, e50, e51⟩ := index0 t
  have hN : grid0.N = 20 := N_0
  have ht : t.val < 20 := hN ▸ t.isLt
  funext j
  obtain ⟨p, q, rfl⟩ : ∃ (p : Fin 5000) (q : Fin 64), j = ix2 p q := ⟨j 0, j 1, eq_ix2 j⟩
  have hr : t.val * 5000 + p.val < 100000 := by have := p.isLt; omega
  have he : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show Cert.Sage.rect (Cert.Sage.fused (n := 5000) (iblk0 V c 0 t) (iblk0 V c 1 t) (iblk0 V c 2 t) (iblk0 V c 3 t) (iblk0 V c 4 t)) (ix2 p q)
      = whole0 V c (((cfg0.win 5).blk t).view.emb (ix2 p q))
  rw [he]
  unfold whole0
  refine Cert.Sage.rect_fused_rows (iblk0 V c 0 t) (iblk0 V c 1 t) (iblk0 V c 2 t) (iblk0 V c 3 t) (iblk0 V c 4 t)
    (V c main_v21) (V c main_v11) (V c main_arg0) (V c main_v24) (V c main_v25) p ⟨t.val * 5000 + p.val, hr⟩ q ?_ ?_ ?_ ?_ ?_
  · intro k
    show V c main_v21 (((cfg0.win 0).blk t).view.emb (ix2 p k)) = V c main_v21 (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v11 (((cfg0.win 1).blk t).view.emb (ix2 p (0 : Fin 1))) = V c main_v11 (ix2 (⟨t.val * 5000 + p.val, hr⟩ : Fin 100000) (0 : Fin 1))
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * (0 : Fin 1).val = (0 : Fin 1).val; omega
  · intro k
    show V c main_arg0 (((cfg0.win 2).blk t).view.emb (ix2 p k)) = V c main_arg0 (ix2 (⟨t.val * 5000 + p.val, hr⟩ : Fin 100000) k)
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 64 + 1 * k.val = k.val; omega
  · intro k
    show V c main_v24 (((cfg0.win 3).blk t).view.emb (ix2 k q)) = V c main_v24 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 64 + 1 * q.val = q.val; omega
  · show V c main_v25 (((cfg0.win 4).blk t).view.emb (ix2 (0 : Fin 1) q)) = V c main_v25 (ix2 (0 : Fin 1) q)
    refine congrArg _ (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 64 + 1 * q.val = q.val; omega

/-- An index of the output array is in point t's block when each coordinate is in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Row r of the output array is in the block of point r / 5000: the twenty blocks tile the array. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have htlt : (i 0).val / 5000 < grid0.N := by rw [hN]; omega
  refine ⟨⟨(i 0).val / 5000, htlt⟩, flush0_5 _, ?_⟩
  rw [mem_blk0]
  obtain ⟨-, -, -, -, -, -, -, -, -, -, e50, e51⟩ := index0 ⟨(i 0).val / 5000, htlt⟩
  have e50' : win0_5.index ⟨(i 0).val / 5000, htlt⟩ (0 : Fin 2) = (i 0).val / 5000 := e50
  intro a
  match a with
  | ⟨0, _⟩ =>
    show win0_5.index ⟨(i 0).val / 5000, htlt⟩ (0 : Fin 2) * 5000 ≤ (i 0).val ∧ (i 0).val < win0_5.index ⟨(i 0).val / 5000, htlt⟩ (0 : Fin 2) * 5000 + 5000
    rw [e50']; omega
  | ⟨1, _⟩ =>
    show win0_5.index ⟨(i 0).val / 5000, htlt⟩ (1 : Fin 2) * 64 ≤ (i 1).val ∧ (i 1).val < win0_5.index ⟨(i 0).val / 5000, htlt⟩ (1 : Fin 2) * 64 + 64
    rw [e51]; omega

/-- After the grid its output array is `whole0` of the arrays it found on entry. -/
theorem final0
    (hpay : ∀ (x0 : Vec Ideal S5000x64 .f32) (x1 : Vec Ideal S5000x1 .f32) (x2 : Vec Ideal S5000x64 .f32)
      (x3 : Vec Ideal S128x64 .f32) (x4 : Vec Ideal S1x64 .f32),
      k0_pay1 (F := Ideal) x0 x1 x2 x3 x4 = Cert.Sage.rect (Cert.Sage.fused (n := 5000) x0 x1 x2 x3 x4))
    (c : Dev nD) : (dat0 V c).arrAt 5 cfg0.N = whole0 V c :=
  (dat0 V c).arrAt_eq_of_cover 5 (whole0 V c) (fun t _ => flushed0 V hpay c t) (cover0)

/-! ## The second grid -/

/-- The layer of the arrays the second grid finds on entry. -/
def whole1 (c : Dev nD) : Cert.Sage.Mat 100000 64 :=
  Cert.Sage.fused (n := 100000) (V c main_v36) (V c main_v11) (V c main_v26) (V c main_v39) (V c main_v40)

/-- Where each window's block sits at point t: the row-wise windows and the output at block row t, the
    weights and the bias at the origin. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is its block of rows of `whole1`. -/
theorem flushed1
    (hpay : ∀ (x0 : Vec Ideal S5000x64 .f32) (x1 : Vec Ideal S5000x1 .f32) (x2 : Vec Ideal S5000x64 .f32)
      (x3 : Vec Ideal S128x64 .f32) (x4 : Vec Ideal S1x64 .f32),
      k1_pay1 (F := Ideal) x0 x1 x2 x3 x4 = Cert.Sage.fused (n := 5000) x0 x1 x2 x3 x4)
    (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S5000x1) zero_off,
    View.ld_unit_zero (S := S128x64) zero_off, View.ld_unit_zero (S := S1x64) zero_off]
  rw [hpay]
  obtain ⟨e00, e01, e10, e11, e20, e21, e30, e31, e40, e41, e50, e51⟩ := index1 t
  have hN : grid1.N = 20 := N_1
  have ht : t.val < 20 := hN ▸ t.isLt
  funext j
  obtain ⟨p, q, rfl⟩ : ∃ (p : Fin 5000) (q : Fin 64), j = ix2 p q := ⟨j 0, j 1, eq_ix2 j⟩
  have hr : t.val * 5000 + p.val < 100000 := by have := p.isLt; omega
  have he : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show Cert.Sage.fused (n := 5000) (iblk1 V c 0 t) (iblk1 V c 1 t) (iblk1 V c 2 t) (iblk1 V c 3 t) (iblk1 V c 4 t) (ix2 p q)
      = whole1 V c (((cfg1.win 5).blk t).view.emb (ix2 p q))
  rw [he]
  unfold whole1
  refine Cert.Sage.fused_rows (iblk1 V c 0 t) (iblk1 V c 1 t) (iblk1 V c 2 t) (iblk1 V c 3 t) (iblk1 V c 4 t)
    (V c main_v36) (V c main_v11) (V c main_v26) (V c main_v39) (V c main_v40) p ⟨t.val * 5000 + p.val, hr⟩ q ?_ ?_ ?_ ?_ ?_
  · intro k
    show V c main_v36 (((cfg1.win 0).blk t).view.emb (ix2 p k)) = V c main_v36 (ix2 (⟨t.val * 5000 + p.val, hr⟩ : Fin 100000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v11 (((cfg1.win 1).blk t).view.emb (ix2 p (0 : Fin 1))) = V c main_v11 (ix2 (⟨t.val * 5000 + p.val, hr⟩ : Fin 100000) (0 : Fin 1))
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * (0 : Fin 1).val = (0 : Fin 1).val; omega
  · intro k
    show V c main_v26 (((cfg1.win 2).blk t).view.emb (ix2 p k)) = V c main_v26 (ix2 (⟨t.val * 5000 + p.val, hr⟩ : Fin 100000) k)
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 64 + 1 * k.val = k.val; omega
  · intro k
    show V c main_v39 (((cfg1.win 3).blk t).view.emb (ix2 k q)) = V c main_v39 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  · show V c main_v40 (((cfg1.win 4).blk t).view.emb (ix2 (0 : Fin 1) q)) = V c main_v40 (ix2 (0 : Fin 1) q)
    refine congrArg _ (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 64 + 1 * q.val = q.val; omega

/-- An index of the output array is in point t's block when each coordinate is in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Row r of the output array is in the block of point r / 5000: the twenty blocks tile the array. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have htlt : (i 0).val / 5000 < grid1.N := by rw [hN]; omega
  refine ⟨⟨(i 0).val / 5000, htlt⟩, flush1_5 _, ?_⟩
  rw [mem_blk1]
  obtain ⟨-, -, -, -, -, -, -, -, -, -, e50, e51⟩ := index1 ⟨(i 0).val / 5000, htlt⟩
  have e50' : win1_5.index ⟨(i 0).val / 5000, htlt⟩ (0 : Fin 2) = (i 0).val / 5000 := e50
  intro a
  match a with
  | ⟨0, _⟩ =>
    show win1_5.index ⟨(i 0).val / 5000, htlt⟩ (0 : Fin 2) * 5000 ≤ (i 0).val ∧ (i 0).val < win1_5.index ⟨(i 0).val / 5000, htlt⟩ (0 : Fin 2) * 5000 + 5000
    rw [e50']; omega
  | ⟨1, _⟩ =>
    show win1_5.index ⟨(i 0).val / 5000, htlt⟩ (1 : Fin 2) * 64 ≤ (i 1).val ∧ (i 1).val < win1_5.index ⟨(i 0).val / 5000, htlt⟩ (1 : Fin 2) * 64 + 64
    rw [e51]; omega

/-- After the grid its output array is `whole1` of the arrays it found on entry. -/
theorem final1
    (hpay : ∀ (x0 : Vec Ideal S5000x64 .f32) (x1 : Vec Ideal S5000x1 .f32) (x2 : Vec Ideal S5000x64 .f32)
      (x3 : Vec Ideal S128x64 .f32) (x4 : Vec Ideal S1x64 .f32),
      k1_pay1 (F := Ideal) x0 x1 x2 x3 x4 = Cert.Sage.fused (n := 5000) x0 x1 x2 x3 x4)
    (c : Dev nD) : (dat1 V c).arrAt 5 cfg1.N = whole1 V c :=
  (dat1 V c).arrAt_eq_of_cover 5 (whole1 V c) (fun t _ => flushed1 V hpay c t) (cover1)

end Cert.KernelIdeal.Region

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.Body.lean ====
/-
  The two block bodies' arithmetic, read as the scale-then-one-product layer on the rows of a block.

  Each body takes a block of 5000 rows: the summed neighbour features, a reciprocal per row held as a
  one-column block, the rows' own features, the stacked 128 × 64 weights and the bias held as a one-row
  matrix. It scales every row of the sum by that row's reciprocal, lays the scaled sum and the own features
  side by side as rows of 128 entries, multiplies by the stacked weights, and adds the bias row to every row.
  Over the extended reals the narrowing of the two product operands is the identity, so entry (p, q) of the
  result is (∑_{k<128} [s(p,·)·iv(p) ‖ x(p,·)](k) · Wc(k,q)) + B(0,q): the layer of the specification, on the
  block's rows. The first body then takes the larger of each entry and the zero word: the rectifier.
-/
import proofs.«137777_j1271310319672_2_alg».proof.Proof.Gen.KernelIdeal.Skeleton
import proofs.«137777_j1271310319672_2_alg».proof.Proof.Sage
import proofs.«137777_j1271310319672_2_alg».proof.Proof.LibPlainDot
import proofs.«137777_j1271310319672_2_alg».proof.Proof.LibColumn
import proofs.«137777_j1271310319672_2_alg».proof.Proof.LibRowSpread
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- The printed dimension numbers are those of the plain 5000 × 128 by 128 × 64 product: the same lists
    of axes, and the well-formedness field is a proposition. -/
theorem dot_eq_plain : dot_S5000x128_S128x64_S5000x64_1_0_0_1_n_n = DotDims.plain 5000 128 64 := rfl

/-- Two n × 64 arrays laid side by side along the second axis read, at (p, k), the first at (p, k) when
    k < 64 and the second at (p, k − 64) otherwise. -/
theorem sideBySide_apply {α : Type} {n : Nat} (a b : (⟨2, ![n, 64]⟩ : Shape).Idx → α)
    (h : Shape.Concatenates [(⟨2, ![n, 64]⟩ : Shape), ⟨2, ![n, 64]⟩] ⟨2, ![n, 128]⟩ 1) (p : Fin n) (k : Fin 128) :
    concatenate ⟨2, ![n, 128]⟩ 1 [⟨⟨2, ![n, 64]⟩, a⟩, ⟨⟨2, ![n, 64]⟩, b⟩] h (ix2 p k)
      = if hk : k.val < 64 then a (ix2 p ⟨k.val, hk⟩) else b (ix2 p ⟨k.val - 64, by have := k.isLt; omega⟩) := by
  by_cases hk : k.val < 64
  · rw [dif_pos hk]
    exact concatenate_pair_apply_left (t := ⟨2, ![n, 128]⟩) (s₁ := ⟨2, ![n, 64]⟩) (s₂ := ⟨2, ![n, 64]⟩) (1 : Fin 2) a b h
      (ix2 p k) rfl (ix2 p (⟨k.val, hk⟩ : Fin 64)) (fun c => by
        match c with
        | ⟨0, _⟩ => rfl
        | ⟨1, _⟩ => rfl)
  · rw [dif_neg hk]
    exact concatenate_pair_apply_right (t := ⟨2, ![n, 128]⟩) (s₁ := ⟨2, ![n, 64]⟩) (s₂ := ⟨2, ![n, 64]⟩) (1 : Fin 2) a b h
      (ix2 p k) rfl rfl (ix2 p (⟨k.val - 64, by have := k.isLt; omega⟩ : Fin 64)) (fun c hc => by
        match c with
        | ⟨0, _⟩ => rfl
        | ⟨1, _⟩ => exact absurd rfl hc) (by
        show k.val - 64 + 64 = k.val
        omega)

/-- The body's arithmetic with its identity casts removed, at (p, q): the specification's entry q of row p. -/
theorem core_apply (x0 : FVec Ideal S5000x64 .f32) (x1 : FVec Ideal S5000x1 .f32) (x2 : FVec Ideal S5000x64 .f32)
    (x3 : FVec Ideal S128x64 .f32) (x4 : FVec Ideal S1x64 .f32)
    (hcol : S5000x1.Broadcasts S5000x64) (hcat : Shape.Concatenates [S5000x64, S5000x64] S5000x128 1)
    (hlt : FTy.bits .bf16 < FTy.bits .f32) (hrow : S1x64.Broadcasts S5000x64) (p : Fin 5000) (q : Fin 64) :
    addf (matmul dot_S5000x128_S128x64_S5000x64_1_0_0_1_n_n none
          (truncf .bf16 (concatenate S5000x128 1 [⟨S5000x64, mulf x0 (broadcastTo S5000x64 x1 hcol)⟩, ⟨S5000x64, x2⟩] hcat) hlt)
          (truncf .bf16 x3 hlt) (constant S5000x64 .f32 0x00000000#32))
        (broadcastTo S5000x64 x4 hrow) (ix2 p q)
      = Cert.Sage.fusedAt (fun k => x0 (ix2 p k)) (fun k => x2 (ix2 p k)) (x1 (ix2 p (0 : Fin 1))) x3 x4 q := by
  rw [addf_apply, dot_eq_plain]
  unfold Cert.Sage.fusedAt
  refine congrArg₂ (· + ·) ?_ (RowSpread.rowBcast_apply x4 hrow p q)
  refine (PlainDot.matmul_zero_apply none _ _ p q).trans ?_
  refine Finset.sum_congr rfl fun k _ => ?_
  refine congrArg₂ (· * ·) ?_ rfl
  refine (sideBySide_apply _ _ hcat p k).trans ?_
  unfold Cert.Sage.sideBySide
  by_cases hk : k.val < 64
  · rw [dif_pos hk, dif_pos hk, mulf_apply]
    exact congrArg (x0 (ix2 p ⟨k.val, hk⟩) * ·) (ColumnIdx.broadcastTo_a1_ab_apply x1 hcol p _)
  · rw [dif_neg hk, dif_neg hk]

/-- The second body is the layer on the block's rows. -/
theorem pay_plain (x0 : Vec Ideal S5000x64 .f32) (x1 : Vec Ideal S5000x1 .f32) (x2 : Vec Ideal S5000x64 .f32)
    (x3 : Vec Ideal S128x64 .f32) (x4 : Vec Ideal S1x64 .f32) :
    k1_pay1 (F := Ideal) x0 x1 x2 x3 x4 = Cert.Sage.fused (n := 5000) x0 x1 x2 x3 x4 := by
  funext i
  obtain ⟨p, q, rfl⟩ : ∃ (p : Fin 5000) (q : Fin 64), i = ix2 p q := ⟨i 0, i 1, eq_ix2 i⟩
  rw [Cert.Sage.fused_apply]
  unfold k1_pay1
  rw [shapeCast_self, shapeCast_self, shapeCast_self, shapeCast_self, shapeCast_self]
  exact core_apply x0 x1 x2 x3 x4 _ _ _ _ p q

/-- The first body is the rectifier of the layer on the block's rows. -/
theorem pay_rect (x0 : Vec Ideal S5000x64 .f32) (x1 : Vec Ideal S5000x1 .f32) (x2 : Vec Ideal S5000x64 .f32)
    (x3 : Vec Ideal S128x64 .f32) (x4 : Vec Ideal S1x64 .f32) :
    k0_pay1 (F := Ideal) x0 x1 x2 x3 x4 = Cert.Sage.rect (Cert.Sage.fused (n := 5000) x0 x1 x2 x3 x4) := by
  funext i
  obtain ⟨p, q, rfl⟩ : ∃ (p : Fin 5000) (q : Fin 64), i = ix2 p q := ⟨i 0, i 1, eq_ix2 i⟩
  rw [Cert.Sage.rect_apply, Cert.Sage.fused_apply]
  unfold k0_pay1
  rw [shapeCast_self, shapeCast_self, shapeCast_self, shapeCast_self]
  rw [maximumf_apply, broadcast_apply]
  exact congrArg (max · Cert.Sage.zeroWord) (core_apply x0 x1 x2 x3 x4 _ _ _ _ p q)

end Cert.KernelIdeal.Body

end
-- ==== Proof.HostDefs.lean ====
/-
  The host operations around the two grids, read at the buffers the grids use.

  Before the first grid the host computes, from the edge list, the source and destination node ids; the
  neighbour count per node (ones summed at the destination ids), the divisor (the larger of the count and
  one) and its reciprocal column; the neighbour sum of the node features (rows gathered at the source ids,
  negative ids wrapped once, summed at the destination ids); the two weight matrices transposed and stacked;
  and the bias as a one-row matrix.  Between the grids it computes the neighbour sum of the first grid's
  output with the same ids, and the second layer's stacked weights and bias row.  Each stretch is read here
  as a function of the buffer contents before it, whatever they are; the neighbour sum is ONE function of
  the ids and the features, used by both stretches, and is never opened.
-/
import proofs.«137777_j1271310319672_2_alg».proof.Proof.Gen.KernelIdeal.Launch
import Idealize.ShloMosaic.Lib.StableHlo.Run
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.ShloMosaic.StableHlo
open Idealize.SL Idealize.SL.Sem

/-- The edge list: two rows of node ids. -/
abbrev EdgeIdx : Type := (⟨S2x1280000, .i32⟩ : BufTy).Contents (Elt Ideal)
/-- One node id per edge. -/
abbrev Ids : Type := (⟨S1280000, .i32⟩ : BufTy).Contents (Elt Ideal)
/-- Node features: 100000 rows of 64. -/
abbrev Feat : Type := (⟨S100000x64, .f32⟩ : BufTy).Contents (Elt Ideal)
/-- One value per node, as a column. -/
abbrev Col : Type := (⟨S100000x1, .f32⟩ : BufTy).Contents (Elt Ideal)
/-- A 64 × 64 weight matrix. -/
abbrev Wt : Type := (⟨S64x64, .f32⟩ : BufTy).Contents (Elt Ideal)

/-- The source ids: the edge list's first row. -/
def srcIds (x1 : EdgeIdx) : Ids :=
  shapeCast _ (extractStridedSlice S1x1280000 ![0, 0] x1 slices_S2x1280000_S1x1280000_0_0) shapeCasts_S1x1280000_S1280000
/-- The destination ids: the edge list's second row. -/
def dstIds (x1 : EdgeIdx) : Ids :=
  shapeCast _ (extractStridedSlice S1x1280000 ![1, 0] x1 slices_S2x1280000_S1x1280000_1_0) shapeCasts_S1x1280000_S1280000

/-- The neighbour sum: the rows of X gathered at the source ids (a negative id wrapped by the node count),
    added up at the destination ids, from zero. -/
def aggOf (src dst : Ids) (X : Feat) : Feat :=
  Host.scatterAdd (F := Ideal) scatter_S100000x64_S1280000x1_S1280000x64_1_0_0_1
    (broadcastInDim S100000x64 ![] bcast_S_S100000x64 (constant S_ .f32 0x00000000#32))
    (broadcastInDim S1280000x1 ![0] bcast_S1280000_S1280000x1_0 dst)
    (Host.gather gather_S100000x64_S1280000x1_S1280000x64_1_0_n_n_0_1_164 X
      (broadcastInDim S1280000x1 ![0] bcast_S1280000_S1280000x1_0
        (select (cmpi .slt src (broadcastInDim S1280000 ![] bcast_S_S1280000 (constantI S_ 32 0#32)))
          (addi src (broadcastInDim S1280000 ![] bcast_S_S1280000 (constantI S_ 32 100000#32))) src)))

/-- The neighbour count: ones added up at the destination ids, from zero. -/
def countOf (dst : Ids) : Col :=
  Host.scatterAdd (F := Ideal) scatter_S100000x1_S1280000x1_S1280000x1_1_0_0_1
    (broadcastInDim S100000x1 ![] bcast_S_S100000x1 (constant S_ .f32 0x00000000#32))
    (broadcastInDim S1280000x1 ![0] bcast_S1280000_S1280000x1_0 dst)
    (broadcastInDim S1280000x1 ![] bcast_S_S1280000x1 (constant S_ .f32 0x3F800000#32))

/-- The divisor: the larger of the count and one. -/
def divisorOf (dst : Ids) : Col :=
  maximumf (F := Ideal) (countOf dst) (broadcastInDim S100000x1 ![] bcast_S_S100000x1 (constant (F := Ideal) S_ .f32 0x3F800000#32))

/-- The reciprocal column: one over the divisor. -/
def recipOf (cm : Col) : Col :=
  Host.divf (F := Ideal) (broadcastInDim S100000x1 ![] bcast_S_S100000x1 (constant (F := Ideal) S_ .f32 0x3F800000#32)) cm

/-- Two weight matrices, each transposed, stacked along the rows. -/
def stackedT (Wl Wr : Wt) : (⟨S128x64, .f32⟩ : BufTy).Contents (Elt Ideal) :=
  concatenate S128x64 0 [⟨S64x64, transpose S64x64 [1, 0] Wl transposes_S64x64_S64x64_1_0⟩,
    ⟨S64x64, transpose S64x64 [1, 0] Wr transposes_S64x64_S64x64_1_0⟩] concatenates_S64x64_S64x64_S128x64_d0

/-- A bias viewed as one row. -/
def asRow (b : (⟨S64, .f32⟩ : BufTy).Contents (Elt Ideal)) : (⟨S1x64, .f32⟩ : BufTy).Contents (Elt Ideal) :=
  shapeCast _ b shapeCasts_S64_S1x64

end Cert.KernelIdeal.Net

end
-- ==== Proof.HostPre.lean ====
/-
  The host operations before the first grid, read at the buffers the first grid and the later host
  operations use, as functions of the buffer contents before them: the neighbour sum of the node features,
  the reciprocal of the divisor, the first layer's stacked weights and bias row, the two id rows, and the
  arguments the stretch leaves alone.
-/
import proofs.«137777_j1271310319672_2_alg».proof.Proof.HostDefs

set_option maxRecDepth 16384

noncomputable section

namespace Cert.KernelIdeal.Net

open Cert.KernelIdeal Cert.KernelIdeal.Gen
open Idealize.ShloMosaic Idealize.ShloMosaic.TcCoe Idealize.ShloMosaic.StableHlo
open Idealize.SL Idealize.SL.Sem

-- the buffer contents before the stretch, whatever they are
variable (W : Valuation τ sig (Elt Ideal))

/-- The neighbour sum of the node features. -/
theorem pre_sum : after (hostOps0 (F := Ideal)) W (Proc.devRef .tc main_v21)
    = aggOf (srcIds (W (Proc.devRef .tc main_arg1))) (dstIds (W (Proc.devRef .tc main_arg1))) (W (Proc.devRef .tc main_arg0)) := by
  after_results_simp <;> rfl

/-- The reciprocal column: one over the larger of the neighbour count and one. -/
theorem pre_recip : after (hostOps0 (F := Ideal)) W (Proc.devRef .tc main_v11)
    = recipOf (divisorOf (dstIds (W (Proc.devRef .tc main_arg1)))) := by
  after_results_simp <;> rfl

/-- The first layer's two weight matrices, transposed and stacked. -/
theorem pre_weights : after (hostOps0 (F := Ideal)) W (Proc.devRef .tc main_v24)
    = stackedT (W (Proc.devRef .tc main_arg2)) (W (Proc.devRef .tc main_arg4)) := by
  after_results_simp <;> rfl

/-- The first layer's bias as one row. -/
theorem pre_bias : after (hostOps0 (F := Ideal)) W (Proc.devRef .tc main_v25) = asRow (W (Proc.devRef .tc main_arg3)) := by
  after_results_simp <;> rfl

/-- The source ids. -/
theorem pre_src : after (hostOps0 (F := Ideal)) W (Proc.devRef .tc main_v1) = srcIds (W (Proc.devRef .tc main_arg1)) := by
  after_results_simp <;> rfl

/-- The destination ids. -/
theorem pre_dst : after (hostOps0 (F := Ideal)) W (Proc.devRef .tc main_v3) = dstIds (W (Proc.devRef .tc main_arg1)) := by
  after_results_simp <;> rfl

/-- The stretch writes no argument. -/
theorem pre_arg0 : after (hostOps0 (F := Ideal)) W (Proc.devRef .tc main_arg0) = W (Proc.devRef .tc main_arg0) := by
  after_results_simp <;> rfl
theorem pre_arg5 : after (hostOps0 (F := Ideal)) W (Proc.devRef .tc main_arg5) = W (Proc.devRef .tc main_arg5) := by
  after_results_simp <;> rfl
theorem pre_arg6 : after (hostOps0 (F := Ideal)) W (Proc.devRef .tc main_arg6) = W (Proc.devRef .tc main_arg6) := by
  after_results_simp <;> rfl
theorem pre_arg7 : after (hostOps0 (F := Ideal)) W (Proc.devRef .tc main_arg7) = W (Proc.devRef .tc main_arg7) := by
  after_results_simp <;> rfl

end Cert.KernelIdeal.Net

end
-- ==== Proof.HostMid.lean ====
/-
  The host operations between the two grids, read at the buffers the second grid uses, as functions of
  the buffer contents before them: the neighbour sum of the first grid's output with the same ids, the
  second layer's stacked weights and bias row, and the two buffers the stretch leaves alone (the reciprocal
  column and the first grid's output).
-/
import proofs.«137777_j1271310319672_2_alg».proof.Proof.HostDefs

set_option maxRecDepth 16384

noncomputable section

namespace Cert.KernelIdeal.Net

open Cert.KernelIdeal Cert.KernelIdeal.Gen
open Idealize.ShloMosaic Idealize.ShloMosaic.TcCoe Idealize.ShloMosaic.StableHlo
open Idealize.SL Idealize.SL.Sem

-- the buffer contents before the stretch, whatever they are
variable (W : Valuation τ sig (Elt Ideal))

/-- The neighbour sum of the first grid's output. -/
theorem mid_sum : after (hostOps1 (F := Ideal)) W (Proc.devRef .tc main_v36)
    = aggOf (W (Proc.devRef .tc main_v1)) (W (Proc.devRef .tc main_v3)) (W (Proc.devRef .tc main_v26)) := by
  after_results_simp <;> rfl

/-- The second layer's two weight matrices, transposed and stacked. -/
theorem mid_weights : after (hostOps1 (F := Ideal)) W (Proc.devRef .tc main_v39)
    = stackedT (W (Proc.devRef .tc main_arg5)) (W (Proc.devRef .tc main_arg7)) := by
  after_results_simp <;> rfl

/-- The second layer's bias as one row. -/
theorem mid_bias : after (hostOps1 (F := Ideal)) W (Proc.devRef .tc main_v40) = asRow (W (Proc.devRef .tc main_arg6)) := by
  after_results_simp <;> rfl

/-- The stretch leaves the reciprocal column and the first grid's output alone. -/
theorem mid_recip : after (hostOps1 (F := Ideal)) W (Proc.devRef .tc main_v11) = W (Proc.devRef .tc main_v11) := by
  after_results_simp <;> rfl
theorem mid_out : after (hostOps1 (F := Ideal)) W (Proc.devRef .tc main_v26) = W (Proc.devRef .tc main_v26) := by
  after_results_simp <;> rfl

end Cert.KernelIdeal.Net

end
-- ==== Proof.KValue.lean ====
/-
  The idealized kernel program's result as one function of its arguments.

  Following the buffer contents from the launch through the four stretches of the program: the first host
  stretch turns the arguments into the neighbour sum of the node features, the reciprocal column, the first
  layer's stacked weights and bias row; the first grid leaves, in its output array, the rectified layer of
  those; the second host stretch turns that output into its own neighbour sum (same ids) and prepares the
  second layer's weights and bias, leaving the reciprocal column and the first output alone; the second
  grid leaves the layer of those in the result array.  So the result is the two-layer network in the
  scale-then-one-product arrangement, applied to the arguments.
-/
import proofs.«137777_j1271310319672_2_alg».proof.Proof.KRun
import proofs.«137777_j1271310319672_2_alg».proof.Proof.Region
import proofs.«137777_j1271310319672_2_alg».proof.Proof.Body
import proofs.«137777_j1271310319672_2_alg».proof.Proof.HostPre
import proofs.«137777_j1271310319672_2_alg».proof.Proof.HostMid

set_option maxRecDepth 16384

noncomputable section

namespace Cert.KernelIdeal.Net

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## On entry to the first grid -/

theorem entry1_sum : V1 m ρ c main_v21 = aggOf (srcIds (m ((c : Thread nD τ).loc main_arg1))) (dstIds (m ((c : Thread nD τ).loc main_arg1))) (m ((c : Thread nD τ).loc main_arg0)) :=
  pre_sum (W0 m ρ c)
theorem entry1_recip : V1 m ρ c main_v11 = recipOf (divisorOf (dstIds (m ((c : Thread nD τ).loc main_arg1)))) :=
  pre_recip (W0 m ρ c)
theorem entry1_feat : V1 m ρ c main_arg0 = (m ((c : Thread nD τ).loc main_arg0)) := pre_arg0 (W0 m ρ c)
theorem entry1_weights : V1 m ρ c main_v24 = stackedT (m ((c : Thread nD τ).loc main_arg2)) (m ((c : Thread nD τ).loc main_arg4)) := pre_weights (W0 m ρ c)
theorem entry1_bias : V1 m ρ c main_v25 = asRow (m ((c : Thread nD τ).loc main_arg3)) := pre_bias (W0 m ρ c)

/-- The first layer's output: what the first grid leaves. -/
def hidden : Cert.Sage.Mat 100000 64 :=
  Cert.Sage.rect (Cert.Sage.fused (n := 100000) (aggOf (srcIds (m ((c : Thread nD τ).loc main_arg1))) (dstIds (m ((c : Thread nD τ).loc main_arg1))) (m ((c : Thread nD τ).loc main_arg0)))
    (recipOf (divisorOf (dstIds (m ((c : Thread nD τ).loc main_arg1))))) (m ((c : Thread nD τ).loc main_arg0)) (stackedT (m ((c : Thread nD τ).loc main_arg2)) (m ((c : Thread nD τ).loc main_arg4))) (asRow (m ((c : Thread nD τ).loc main_arg3))))

/-! ## On exit from the first grid -/

theorem exit1_out : W2 m ρ c (Proc.devRef .tc main_v26) = hidden m c := by
  rw [show W2 m ρ c (Proc.devRef .tc main_v26) = Region.whole0 (V1 m ρ) c from
    (W2_arr m ρ c 5).trans (Region.final0 (V1 m ρ) Body.pay_rect c)]
  unfold Region.whole0 hidden
  rw [entry1_sum, entry1_recip, entry1_feat, entry1_weights, entry1_bias]

theorem exit1_recip : W2 m ρ c (Proc.devRef .tc main_v11) = recipOf (divisorOf (dstIds (m ((c : Thread nD τ).loc main_arg1)))) :=
  ((W2_arr m ρ c 1).trans (((dat0 (V1 m ρ) c).arrAt_in 1 rfl _).trans (A_eq0 (V1 m ρ) c 1))).trans (entry1_recip m ρ c)
theorem exit1_src : W2 m ρ c (Proc.devRef .tc main_v1) = srcIds (m ((c : Thread nD τ).loc main_arg1)) :=
  (W2_of_ne m ρ c main_v1 (by decide)).trans (pre_src (W0 m ρ c))
theorem exit1_dst : W2 m ρ c (Proc.devRef .tc main_v3) = dstIds (m ((c : Thread nD τ).loc main_arg1)) :=
  (W2_of_ne m ρ c main_v3 (by decide)).trans (pre_dst (W0 m ρ c))
theorem exit1_arg5 : W2 m ρ c (Proc.devRef .tc main_arg5) = (m ((c : Thread nD τ).loc main_arg5)) :=
  (W2_of_ne m ρ c main_arg5 (by decide)).trans (pre_arg5 (W0 m ρ c))
theorem exit1_arg6 : W2 m ρ c (Proc.devRef .tc main_arg6) = (m ((c : Thread nD τ).loc main_arg6)) :=
  (W2_of_ne m ρ c main_arg6 (by decide)).trans (pre_arg6 (W0 m ρ c))
theorem exit1_arg7 : W2 m ρ c (Proc.devRef .tc main_arg7) = (m ((c : Thread nD τ).loc main_arg7)) :=
  (W2_of_ne m ρ c main_arg7 (by decide)).trans (pre_arg7 (W0 m ρ c))

/-! ## On entry to the second grid -/

theorem entry2_sum : V3 m ρ c main_v36 = aggOf (srcIds (m ((c : Thread nD τ).loc main_arg1))) (dstIds (m ((c : Thread nD τ).loc main_arg1))) (hidden m c) := by
  refine (mid_sum (W2 m ρ c)).trans ?_
  rw [exit1_src, exit1_dst, exit1_out]
theorem entry2_recip : V3 m ρ c main_v11 = recipOf (divisorOf (dstIds (m ((c : Thread nD τ).loc main_arg1)))) :=
  (mid_recip (W2 m ρ c)).trans (exit1_recip m ρ c)
theorem entry2_feat : V3 m ρ c main_v26 = hidden m c :=
  (mid_out (W2 m ρ c)).trans (exit1_out m ρ c)
theorem entry2_weights : V3 m ρ c main_v39 = stackedT (m ((c : Thread nD τ).loc main_arg5)) (m ((c : Thread nD τ).loc main_arg7)) := by
  refine (mid_weights (W2 m ρ c)).trans ?_
  rw [exit1_arg5, exit1_arg7]
theorem entry2_bias : V3 m ρ c main_v40 = asRow (m ((c : Thread nD τ).loc main_arg6)) := by
  refine (mid_bias (W2 m ρ c)).trans ?_
  rw [exit1_arg6]

/-! ## The result -/

/-- The result array at the last boundary is the two-layer network, in the scale-then-one-product
    arrangement, of the arguments. -/
theorem result_eq : W4 m ρ c (Proc.devRef .tc main_v41)
    = Cert.Sage.fusedNet (n := 100000) (aggOf (srcIds (m ((c : Thread nD τ).loc main_arg1))) (dstIds (m ((c : Thread nD τ).loc main_arg1))))
        (recipOf (divisorOf (dstIds (m ((c : Thread nD τ).loc main_arg1))))) (m ((c : Thread nD τ).loc main_arg0))
        (stackedT (m ((c : Thread nD τ).loc main_arg2)) (m ((c : Thread nD τ).loc main_arg4))) (stackedT (m ((c : Thread nD τ).loc main_arg5)) (m ((c : Thread nD τ).loc main_arg7))) (asRow (m ((c : Thread nD τ).loc main_arg3))) (asRow (m ((c : Thread nD τ).loc main_arg6))) := by
  rw [show W4 m ρ c (Proc.devRef .tc main_v41) = Region.whole1 (V3 m ρ) c from
    (W4_arr m ρ c 5).trans (Region.final1 (V3 m ρ) Body.pay_plain c)]
  unfold Region.whole1
  rw [entry2_sum, entry2_recip, entry2_feat, entry2_weights, entry2_bias]
  rfl

end Cert.KernelIdeal.Net

end
-- ==== Proof.LibWordsAt.lean ====
/-
  Words and bits read at an index, and two float words as extended reals.

  The integer operations of a vector (and, exclusive or, sum, comparison) read at an index are the word
  operations on the entries; a select between equal conditions and equal branches is equal; the 32-bit float
  word of 1.0 denotes the extended real 1 and the word of −∞ denotes the bottom element.
-/
import Idealize.ShloMosaic.Lib.ValueIdx
import Idealize.ShloMosaic.PureOps.Ideal.Laws

noncomputable section

namespace Idealize.ShloMosaic.WordsAt

open Idealize.ShloMosaic

variable {s : Shape} {w : Nat}

/-- A vector's bitwise and at an index is the and of the entries. -/
theorem andi_apply (x y : IVec s w) (i : s.Idx) : andi x y i = IntOp.andi (x i) (y i) := rfl
/-- A vector's exclusive or at an index is the exclusive or of the entries. -/
theorem xori_apply (x y : IVec s w) (i : s.Idx) : xori x y i = IntOp.xori (x i) (y i) := rfl
/-- A vector's integer sum at an index is the sum of the entries. -/
theorem addi_apply (x y : IVec s w) (i : s.Idx) : addi x y i = IntOp.addi (x i) (y i) := rfl
/-- A vector's integer comparison at an index compares the entries. -/
theorem cmpi_apply (p : CmpIPredicate) (x y : IVec s w) (i : s.Idx) : cmpi p x y i = IntOp.cmpi p (x i) (y i) := rfl

/-- Selects with equal conditions and equal branches are equal. -/
theorem select_congr {α : Type} {c c' : BitVec 1} {a a' b b' : α} (hc : c = c') (ha : a = a') (hb : b = b') :
    Scalar.select c a b = Scalar.select c' a' b' := by rw [hc, ha, hb]

/-- The 32-bit float word of 1.0 denotes 1. -/
theorem ofBits_one_f32 : Ideal.ofBits .f32 0x3F800000#32 = 1 := by
  simp [Ideal.ofBits, Ideal.ieee]
  first
    | (rw [← EReal.coe_mul]; norm_num; done)
    | (norm_num [← EReal.coe_mul]; done)

/-- The 32-bit float word of −∞ denotes the bottom element. -/
theorem ofBits_neg_inf_f32 : Ideal.ofBits .f32 0xFF800000#32 = ⊥ := by simp [Ideal.ofBits, Ideal.ieee]

end Idealize.ShloMosaic.WordsAt

end
-- ==== Proof.Bridge.lean ====
/-
  The law that joins the two arrangements of a graph-convolution layer, and four reads of host layouts.

  With a reciprocal column iv(r) = 1 / c(r) and no divisor zero, s · iv(r) is s / c(r) for every extended
  real s: the quotient by a divisor that is not zero is the product with its inverse, and 1 · c⁻¹ = c⁻¹.
  A sum over 128 indices is the sum over the first 64 plus the sum over the last 64. On the first half
  the row of 128 entries holds the scaled sum and the stacked weights hold the first matrix transposed; on the
  second half the row holds the node's own features and the stack holds the second matrix transposed. So
  the one product of the second arrangement is the sum of the two products of the first, and the bias moves
  across by commutativity of addition. The network law is the layer law applied twice.

  The layout reads: two transposed 64 × 64 matrices stacked along the rows; a length-64 array viewed as one
  row; the quotient of the all-ones column by a column; the larger of an entry and one, which is never zero.
-/
import proofs.«137777_j1271310319672_2_alg».proof.Proof.Sage
import proofs.«137777_j1271310319672_2_alg».proof.Proof.LibWordsAt
import proofs.«137777_j1271310319672_2_alg».proof.Proof.LibRowSpread
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Sage

open Idealize.ShloMosaic Idealize.ShloMosaic.ValueIdx

/-- Multiplying by the quotient 1 / c is dividing by c, when c is not zero. -/
theorem mul_recip_eq_div (s c : EReal) (hc : c ≠ 0) : s * Ideal.div 1 c = Ideal.div s c := by
  unfold Ideal.div
  rw [if_neg hc, if_neg hc, one_mul]

/-- A sum over 128 indices is the sum over the first 64 plus the sum over the last 64. -/
theorem sum_halves (f : Fin 128 → EReal) :
    ∑ k : Fin 128, f k
      = (∑ k : Fin 64, f ⟨k.val, by have := k.isLt; omega⟩) + ∑ k : Fin 64, f ⟨64 + k.val, by have := k.isLt; omega⟩ :=
  Fin.sum_univ_add (a := 64) (b := 64) f

/-- The first 64 entries of the row of 128 are the scaled sum. -/
theorem sideBySide_left (s x : Fin 64 → EReal) (iv : EReal) (k : Fin 64) (h : k.val < 128) :
    sideBySide s x iv ⟨k.val, h⟩ = s k * iv := by
  unfold sideBySide
  exact dif_pos k.isLt

/-- The last 64 entries of the row of 128 are the node's own features. -/
theorem sideBySide_right (s x : Fin 64 → EReal) (iv : EReal) (k : Fin 64) (h : 64 + k.val < 128) :
    sideBySide s x iv ⟨64 + k.val, h⟩ = x k := by
  unfold sideBySide
  have hn : ¬ (⟨64 + k.val, h⟩ : Fin 128).val < 64 := by show ¬ 64 + k.val < 64; omega
  rw [dif_neg hn]
  exact congrArg x (Fin.ext (by show 64 + k.val - 64 = k.val; omega))

/-- One node's output: the scale-then-one-product arrangement is the divide-then-two-products one. -/
theorem fusedAt_eq_combineAt (s x : Fin 64 → EReal) (c iv : EReal) (Wl Wr : Mat 64 64) (b : Arr 64) (Wc : Mat 128 64)
    (B : Mat 1 64) (hiv : iv = Ideal.div 1 c) (hc : c ≠ 0)
    (hW : ∀ (k : Fin 128) (j : Fin 64), Wc (ix2 k j) = if h : k.val < 64 then Wl (ix2 j ⟨k.val, h⟩) else Wr (ix2 j ⟨k.val - 64, by have := k.isLt; omega⟩))
    (hB : ∀ j : Fin 64, B (ix2 (0 : Fin 1) j) = b (ix1 j)) (j : Fin 64) :
    fusedAt s x iv Wc B j = combineAt s x c Wl Wr b j := by
  unfold fusedAt combineAt
  rw [sum_halves, hB j, add_right_comm]
  refine congrArg₂ (· + ·) (congrArg (· + b (ix1 j)) (Finset.sum_congr rfl fun k _ => ?_)) (Finset.sum_congr rfl fun k _ => ?_)
  · rw [sideBySide_left, hW, dif_pos (show (⟨k.val, by have := k.isLt; omega⟩ : Fin 128).val < 64 from k.isLt), hiv, mul_recip_eq_div _ _ hc]
  · have hn : ¬ (⟨64 + k.val, by have := k.isLt; omega⟩ : Fin 128).val < 64 := by show ¬ 64 + k.val < 64; omega
    rw [sideBySide_right, hW, dif_neg hn]
    exact congrArg (fun t : Fin 64 => x k * Wr (ix2 j t)) (Fin.ext (by show 64 + k.val - 64 = k.val; omega))

/-- One layer: the scale-then-one-product arrangement with reciprocal column 1/c, stacked weights [Wlᵀ ; Wrᵀ]
    and the bias as a row IS the divide-then-two-products arrangement, whenever no divisor is zero. -/
theorem fused_eq_layer {n : Nat} (S X : Mat n 64) (cm iv : Mat n 1) (Wl Wr : Mat 64 64) (b : Arr 64) (Wc : Mat 128 64) (B : Mat 1 64)
    (hiv : ∀ r : Fin n, iv (ix2 r (0 : Fin 1)) = Ideal.div 1 (cm (ix2 r (0 : Fin 1))))
    (hc : ∀ r : Fin n, cm (ix2 r (0 : Fin 1)) ≠ 0)
    (hW : ∀ (k : Fin 128) (j : Fin 64), Wc (ix2 k j) = if h : k.val < 64 then Wl (ix2 j ⟨k.val, h⟩) else Wr (ix2 j ⟨k.val - 64, by have := k.isLt; omega⟩))
    (hB : ∀ j : Fin 64, B (ix2 (0 : Fin 1) j) = b (ix1 j)) :
    fused S iv X Wc B = layer S X cm Wl Wr b := by
  funext i
  obtain ⟨r, j, rfl⟩ : ∃ (r : Fin n) (j : Fin 64), i = ix2 r j := ⟨i 0, i 1, eq_ix2 i⟩
  rw [fused_apply, layer_apply]
  exact fusedAt_eq_combineAt _ _ _ _ Wl Wr b Wc B (hiv r) (hc r) hW hB j

/-- Two layers with a rectifier between them: the two arrangements agree, whenever no divisor is zero. -/
theorem fusedNet_eq_net {n : Nat} (agg : Mat n 64 → Mat n 64) (cm iv : Mat n 1) (x : Mat n 64)
    (W1l W1r W2l W2r : Mat 64 64) (b1 b2 : Arr 64) (Wc1 Wc2 : Mat 128 64) (B1 B2 : Mat 1 64)
    (hiv : ∀ r : Fin n, iv (ix2 r (0 : Fin 1)) = Ideal.div 1 (cm (ix2 r (0 : Fin 1))))
    (hc : ∀ r : Fin n, cm (ix2 r (0 : Fin 1)) ≠ 0)
    (hW1 : ∀ (k : Fin 128) (j : Fin 64), Wc1 (ix2 k j) = if h : k.val < 64 then W1l (ix2 j ⟨k.val, h⟩) else W1r (ix2 j ⟨k.val - 64, by have := k.isLt; omega⟩))
    (hB1 : ∀ j : Fin 64, B1 (ix2 (0 : Fin 1) j) = b1 (ix1 j))
    (hW2 : ∀ (k : Fin 128) (j : Fin 64), Wc2 (ix2 k j) = if h : k.val < 64 then W2l (ix2 j ⟨k.val, h⟩) else W2r (ix2 j ⟨k.val - 64, by have := k.isLt; omega⟩))
    (hB2 : ∀ j : Fin 64, B2 (ix2 (0 : Fin 1) j) = b2 (ix1 j)) :
    fusedNet agg iv x Wc1 Wc2 B1 B2 = net agg cm x W1l W1r W2l W2r b1 b2 := by
  unfold fusedNet net
  rw [fused_eq_layer (agg x) x cm iv W1l W1r b1 Wc1 B1 hiv hc hW1 hB1]
  exact fused_eq_layer _ _ cm iv W2l W2r b2 Wc2 B2 hiv hc hW2 hB2

/-- Two 64 × 64 matrices, each transposed, stacked along the rows: row k of the stack, column j, is x(j, k)
    for k < 64 and y(j, k − 64) after. -/
theorem stackedT_apply {α : Type} (x y : (⟨2, ![64, 64]⟩ : Shape).Idx → α)
    (ht : (⟨2, ![64, 64]⟩ : Shape).Transposes [1, 0] ⟨2, ![64, 64]⟩)
    (hc : Shape.Concatenates [(⟨2, ![64, 64]⟩ : Shape), ⟨2, ![64, 64]⟩] ⟨2, ![128, 64]⟩ 0) (k : Fin 128) (j : Fin 64) :
    concatenate ⟨2, ![128, 64]⟩ 0 [⟨⟨2, ![64, 64]⟩, transpose ⟨2, ![64, 64]⟩ [1, 0] x ht⟩, ⟨⟨2, ![64, 64]⟩, transpose ⟨2, ![64, 64]⟩ [1, 0] y ht⟩] hc (ix2 k j)
      = if h : k.val < 64 then x (ix2 j ⟨k.val, h⟩) else y (ix2 j ⟨k.val - 64, by have := k.isLt; omega⟩) := by
  by_cases h : k.val < 64
  · rw [dif_pos h]
    refine (concatenate_pair_apply_left (t := ⟨2, ![128, 64]⟩) (s₁ := ⟨2, ![64, 64]⟩) (s₂ := ⟨2, ![64, 64]⟩) (0 : Fin 2) _ _ hc
      (ix2 k j) rfl (ix2 (⟨k.val, h⟩ : Fin 64) j) (fun c => by
        match c with
        | ⟨0, _⟩ => rfl
        | ⟨1, _⟩ => rfl)).trans ?_
    exact transpose_ix2_apply x ht (⟨k.val, h⟩ : Fin 64) j
  · rw [dif_neg h]
    refine (concatenate_pair_apply_right (t := ⟨2, ![128, 64]⟩) (s₁ := ⟨2, ![64, 64]⟩) (s₂ := ⟨2, ![64, 64]⟩) (0 : Fin 2) _ _ hc
      (ix2 k j) rfl rfl (ix2 (⟨k.val - 64, by have := k.isLt; omega⟩ : Fin 64) j) (fun c hc' => by
        match c with
        | ⟨0, _⟩ => exact absurd rfl hc'
        | ⟨1, _⟩ => rfl) (by
        show k.val - 64 + 64 = k.val
        omega)).trans ?_
    exact transpose_ix2_apply y ht (⟨k.val - 64, by have := k.isLt; omega⟩ : Fin 64) j

/-- A length-64 array viewed as one row reads, at (0, j), its entry j. -/
theorem asRow_apply {α : Type} (b : (⟨1, ![64]⟩ : Shape).Idx → α) (h : (⟨1, ![64]⟩ : Shape).ShapeCasts ⟨2, ![1, 64]⟩) (j : Fin 64) :
    shapeCast ⟨2, ![1, 64]⟩ b h (ix2 (0 : Fin 1) j) = b (ix1 j) :=
  shapeCast_a_1a_apply b h (0 : Fin 1) j

/-- The host's quotient of the all-ones column by a column c reads, at row r, 1 / c(r). -/
theorem recip_apply {n : Nat} (cm : Mat n 1) (h : (⟨0, ![]⟩ : Shape).BroadcastsInDim ⟨2, ![n, 1]⟩ ![]) (r : Fin n) :
    Host.divf (F := Ideal) (broadcastInDim ⟨2, ![n, 1]⟩ ![] h (constant (F := Ideal) ⟨0, ![]⟩ .f32 0x3F800000#32)) cm (ix2 r (0 : Fin 1))
      = Ideal.div 1 (cm (ix2 r (0 : Fin 1))) := by
  show Ideal.div (broadcastInDim ⟨2, ![n, 1]⟩ ![] h (constant (F := Ideal) ⟨0, ![]⟩ .f32 0x3F800000#32) (ix2 r (0 : Fin 1)))
    (cm (ix2 r (0 : Fin 1))) = _
  rw [RowSpread.scalarInDim_apply, constant_apply, WordsAt.ofBits_one_f32]

/-- The larger of any entry and one is not zero. -/
theorem max_one_ne_zero {n : Nat} (cnt : Mat n 1) (h : (⟨0, ![]⟩ : Shape).BroadcastsInDim ⟨2, ![n, 1]⟩ ![]) (r : Fin n) :
    maximumf (F := Ideal) cnt (broadcastInDim ⟨2, ![n, 1]⟩ ![] h (constant (F := Ideal) ⟨0, ![]⟩ .f32 0x3F800000#32)) (ix2 r (0 : Fin 1)) ≠ 0 := by
  rw [maximumf_apply, RowSpread.scalarInDim_apply, constant_apply, WordsAt.ofBits_one_f32]
  exact ne_of_gt (lt_of_lt_of_le zero_lt_one (le_max_right _ _))

end Cert.Sage

end
-- ==== Proof.RefNet.lean ====
/-
  The reference program's result is the two-layer network in the divide-then-two-products arrangement.

  Each layer of the program sums the features of a node's neighbours, divides the sum by the larger of the
  neighbour count and one, multiplies by a weight matrix read transposed, adds a bias spread over the rows,
  and adds the product of the node's own features with a second weight matrix read transposed.  Read at row r
  and column j this is ((∑ₖ (s(r,k) / c(r)) · Wl(j,k)) + b(j)) + ∑ₖ x(r,k) · Wr(j,k).  The first layer is
  followed by the larger of each entry and the zero word.  The neighbour sum and the count stay opaque: the
  second layer recomputes them by the same terms as the first.
-/
import proofs.«137777_j1271310319672_2_alg».proof.Proof.Gen.ReferenceIdeal.Read
import proofs.«137777_j1271310319672_2_alg».proof.Proof.Sage
import proofs.«137777_j1271310319672_2_alg».proof.Proof.LibWordsAt
import Idealize.ShloMosaic.Lib.ValueIdx
import Idealize.ShloMosaic.Lib.Pipeline.Value
import Idealize.ShloMosaic.PureOps.Ideal.Laws

noncomputable section

open scoped BigOperators

namespace Cert.ReferenceIdeal.RefNet

open Idealize.ShloMosaic Idealize.ShloMosaic.ValueIdx Cert.ReferenceIdeal Cert.ReferenceIdeal.Gen Cert.ReferenceIdeal.Read

/-- The edge list: two rows of node numbers. -/
abbrev EdgeIdx : Type := (⟨S2x1280000, .i32⟩ : BufTy).Contents (Elt Ideal)

/-- The neighbour sum of node features X. -/
def agg (x1 : EdgeIdx) (X : Cert.Sage.Mat 100000 64) : Cert.Sage.Mat 100000 64 :=
  Host.scatterAdd (F := Ideal) (φ := .f32) scatter_S100000x64_S1280000x1_S1280000x64_1_0_0_1 (val_main_v11 (F := Ideal)) (val_main_v12 (F := Ideal) x1)
    (Host.gather gather_S100000x64_S1280000x1_S1280000x64_1_0_n_n_0_1_164 (X : (⟨S100000x64, .f32⟩ : BufTy).Contents (Elt Ideal)) (val_main_v9 (F := Ideal) x1))

/-- The divisor: the larger of the neighbour count and one. -/
def cmax (x1 : EdgeIdx) : Cert.Sage.Mat 100000 1 := val_main_v19 (F := Ideal) x1

theorem agg_first (x0 : (⟨S100000x64, .f32⟩ : BufTy).Contents (Elt Ideal)) (x1 : EdgeIdx) :
    val_main_v13 (F := Ideal) x0 x1 = agg x1 x0 := rfl

theorem agg_second (x0 : (⟨S100000x64, .f32⟩ : BufTy).Contents (Elt Ideal)) (x1 : EdgeIdx) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v40 (F := Ideal) x0 x1 x2 x3 x4 = agg x1 (val_main_v30 (F := Ideal) x0 x1 x2 x3 x4) := rfl

theorem cmax_second (x1 : EdgeIdx) : val_main_v46 (F := Ideal) x1 = cmax x1 := rfl

/-! The composed index functions of the program, read at a row and a column. -/

private theorem lidx23 (r : Fin 100000) (j k : Fin 64) : lidx_main_v23 (ix2 r j) k = ix2 r k :=
  funext fun a => Fin.ext (by match a with | ⟨0, _⟩ => rfl | ⟨1, _⟩ => rfl)
private theorem ridx23 (r : Fin 100000) (j k : Fin 64) : idx_main_v22 (ridx_main_v23 (ix2 r j) k) = ix2 j k :=
  funext fun a => Fin.ext (by match a with | ⟨0, _⟩ => rfl | ⟨1, _⟩ => rfl)
private theorem lidx28 (r : Fin 100000) (j k : Fin 64) : lidx_main_v28 (ix2 r j) k = ix2 r k :=
  funext fun a => Fin.ext (by match a with | ⟨0, _⟩ => rfl | ⟨1, _⟩ => rfl)
private theorem ridx28 (r : Fin 100000) (j k : Fin 64) : idx_main_v27 (ridx_main_v28 (ix2 r j) k) = ix2 j k :=
  funext fun a => Fin.ext (by match a with | ⟨0, _⟩ => rfl | ⟨1, _⟩ => rfl)
private theorem cidx20 (r : Fin 100000) (k : Fin 64) : idx_main_v20 (ix2 r k) = ix2 r (0 : Fin 1) :=
  funext fun a => Fin.ext (by match a with | ⟨0, _⟩ => rfl | ⟨1, _⟩ => rfl)
private theorem bidx25 (r : Fin 100000) (j : Fin 64) : idx_main_v24 (idx_main_v25 (ix2 r j)) = ix1 j :=
  funext fun a => Fin.ext (by match a with | ⟨0, _⟩ => rfl)
private theorem lidx50 (r : Fin 100000) (j k : Fin 64) : lidx_main_v50 (ix2 r j) k = ix2 r k :=
  funext fun a => Fin.ext (by match a with | ⟨0, _⟩ => rfl | ⟨1, _⟩ => rfl)
private theorem ridx50 (r : Fin 100000) (j k : Fin 64) : idx_main_v49 (ridx_main_v50 (ix2 r j) k) = ix2 j k :=
  funext fun a => Fin.ext (by match a with | ⟨0, _⟩ => rfl | ⟨1, _⟩ => rfl)
private theorem lidx55 (r : Fin 100000) (j k : Fin 64) : lidx_main_v55 (ix2 r j) k = ix2 r k :=
  funext fun a => Fin.ext (by match a with | ⟨0, _⟩ => rfl | ⟨1, _⟩ => rfl)
private theorem ridx55 (r : Fin 100000) (j k : Fin 64) : idx_main_v54 (ridx_main_v55 (ix2 r j) k) = ix2 j k :=
  funext fun a => Fin.ext (by match a with | ⟨0, _⟩ => rfl | ⟨1, _⟩ => rfl)
private theorem cidx47 (r : Fin 100000) (k : Fin 64) : idx_main_v47 (ix2 r k) = ix2 r (0 : Fin 1) :=
  funext fun a => Fin.ext (by match a with | ⟨0, _⟩ => rfl | ⟨1, _⟩ => rfl)
private theorem bidx52 (r : Fin 100000) (j : Fin 64) : idx_main_v51 (idx_main_v52 (ix2 r j)) = ix1 j :=
  funext fun a => Fin.ext (by match a with | ⟨0, _⟩ => rfl)

/-- The first layer before its rectifier. -/
theorem layer_first (x0 : (⟨S100000x64, .f32⟩ : BufTy).Contents (Elt Ideal)) (x1 : EdgeIdx) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4 = Cert.Sage.layer (agg x1 x0) x0 (cmax x1) x2 x4 x3 := by
  funext i
  obtain ⟨r, j, rfl⟩ : ∃ (r : Fin 100000) (j : Fin 64), i = ix2 r j := ⟨i 0, i 1, eq_ix2 i⟩
  rw [Cert.Sage.layer_apply]
  unfold Cert.Sage.combineAt
  rw [val_main_v29_apply, val_main_v26_apply, val_main_v23_apply, val_main_v28_apply, val_main_v25_apply,
    val_main_v24_apply, bidx25, Ideal.addf_def, Ideal.addf_def]
  refine congrArg₂ (· + ·) (congrArg₂ (· + ·) (Finset.sum_congr rfl fun k _ => ?_) rfl) (Finset.sum_congr rfl fun k _ => ?_)
  · rw [val_main_v21_apply, val_main_v22_apply, val_main_v20_apply, Ideal.hostDivf_def, lidx23, ridx23, cidx20,
      agg_first]
    rfl
  · rw [val_main_v27_apply, lidx28, ridx28]

/-- The first layer with its rectifier. -/
theorem rect_first (x0 : (⟨S100000x64, .f32⟩ : BufTy).Contents (Elt Ideal)) (x1 : EdgeIdx) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v30 (F := Ideal) x0 x1 x2 x3 x4 = Cert.Sage.rect (Cert.Sage.layer (agg x1 x0) x0 (cmax x1) x2 x4 x3) := by
  funext i
  rw [Cert.Sage.rect_apply, val_main_v30_apply, layer_first, val_main_call0_v0_apply, val_main_call0_cst_apply]
  rfl

/-- The second layer, over the first layer's output left as it is. -/
theorem layer_second (x0 : (⟨S100000x64, .f32⟩ : BufTy).Contents (Elt Ideal)) (x1 : EdgeIdx) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v56 (F := Ideal) x0 x1 x2 x3 x4 x5 x6 x7
      = Cert.Sage.layer (agg x1 (val_main_v30 (F := Ideal) x0 x1 x2 x3 x4)) (val_main_v30 (F := Ideal) x0 x1 x2 x3 x4)
          (cmax x1) x5 x7 x6 := by
  funext i
  obtain ⟨r, j, rfl⟩ : ∃ (r : Fin 100000) (j : Fin 64), i = ix2 r j := ⟨i 0, i 1, eq_ix2 i⟩
  rw [Cert.Sage.layer_apply]
  unfold Cert.Sage.combineAt
  rw [val_main_v56_apply, val_main_v53_apply, val_main_v50_apply, val_main_v55_apply, val_main_v52_apply,
    val_main_v51_apply, bidx52, Ideal.addf_def, Ideal.addf_def]
  refine congrArg₂ (· + ·) (congrArg₂ (· + ·) (Finset.sum_congr rfl fun k _ => ?_) rfl) (Finset.sum_congr rfl fun k _ => ?_)
  · rw [val_main_v48_apply, val_main_v49_apply, val_main_v47_apply, Ideal.hostDivf_def, lidx50, ridx50, cidx47,
      agg_second, cmax_second]
  · rw [val_main_v54_apply, lidx55, ridx55]

/-- The program's result is the two-layer network. -/
theorem val_eq (x0 : (⟨S100000x64, .f32⟩ : BufTy).Contents (Elt Ideal)) (x1 : EdgeIdx) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v56 (F := Ideal) x0 x1 x2 x3 x4 x5 x6 x7 = Cert.Sage.net (agg x1) (cmax x1) x0 x2 x4 x5 x7 x3 x6 := by
  unfold Cert.Sage.net
  rw [layer_second, rect_first]

/-- The divisor is at least one, so it is not zero. -/
theorem cmax_ne_zero (x1 : EdgeIdx) (r : Fin 100000) : cmax x1 (ix2 r (0 : Fin 1)) ≠ 0 := by
  unfold cmax
  rw [val_main_v19_apply, val_main_v18_apply, val_main_cst_3_apply, Ideal.maximumf_def, Ideal.ofBits_def,
    WordsAt.ofBits_one_f32]
  exact ne_of_gt (lt_of_lt_of_le zero_lt_one (le_max_right _ _))

end Cert.ReferenceIdeal.RefNet

end
-- ==== Proof.Same.lean ====
/-
  The two programs compute the neighbour sum and the divisor by the same operations.

  Both programs slice the two id rows out of the edge list, wrap negative source ids by the node count,
  gather the feature rows at the source ids and add them up at the destination ids from zero; both count the
  neighbours by adding ones at the destination ids and take the larger of the count and one.  The operations,
  their dimension numbers and their literals are the same on the two sides, so the two neighbour sums are
  one function of the edge list and the features, and the two divisors one function of the edge list.
-/
import proofs.«137777_j1271310319672_2_alg».proof.Proof.HostDefs
import proofs.«137777_j1271310319672_2_alg».proof.Proof.RefNet

set_option maxRecDepth 16384

noncomputable section

namespace Cert.Proof.Same

open Idealize.ShloMosaic

/-- The reference's neighbour sum is the kernel program's. -/
theorem agg_same (x1 : Cert.KernelIdeal.Net.EdgeIdx) :
    Cert.ReferenceIdeal.RefNet.agg x1
      = Cert.KernelIdeal.Net.aggOf (Cert.KernelIdeal.Net.srcIds x1) (Cert.KernelIdeal.Net.dstIds x1) := rfl

/-- The reference's divisor is the kernel program's. -/
theorem cmax_same (x1 : Cert.KernelIdeal.Net.EdgeIdx) :
    Cert.ReferenceIdeal.RefNet.cmax x1 = Cert.KernelIdeal.Net.divisorOf (Cert.KernelIdeal.Net.dstIds x1) := rfl

end Cert.Proof.Same

end
-- ==== Proof.lean ====
/-
  A two-layer graph convolution with mean aggregation, computed two ways, is one function over the
  extended reals.

  Per layer and per node r the reference divides the neighbour sum s(r, ·) by the divisor c(r) (the larger of
  the neighbour count and one), multiplies by one weight matrix, adds the bias, and adds the product of the
  node's own features with a second weight matrix.  The kernel program instead keeps the reciprocal 1 / c(r),
  scales the neighbour sum by it, lays the scaled sum beside the node's own features as one row of 128 entries,
  multiplies by the two transposed weight matrices stacked as one 128 × 64 matrix, and adds the bias row.
  Since c(r) is at least one it is not zero, and over the extended reals s · (1 / c) = s / c for every s and
  every nonzero c, the infinities included; the sum over the 128 entries is the sum over the first 64 plus the
  sum over the last 64; and addition is commutative and associative.  So the two layers agree entry by entry,
  with no condition on the inputs; a rectifier (the larger of an entry and zero) sits between the layers on
  both sides.  The neighbour sum and the count are computed from the edge list by the same host operations on
  both sides and are carried as one function, never opened.
  The kernel program's result is read off its run (twenty blocks of 5000 rows per layer, each block the
  layer on its rows); the reference's off its run, operation by operation.  Nothing was rewritten when the
  kernel program was idealized, so that claim is the trivial one.
-/
import proofs.«137777_j1271310319672_2_alg».proof.Defs
import proofs.«137777_j1271310319672_2_alg».proof.Proof.Gen.Kernel
import proofs.«137777_j1271310319672_2_alg».proof.Proof.Gen.Kernel.Frame
import proofs.«137777_j1271310319672_2_alg».proof.Proof.Gen.KernelIdeal
import proofs.«137777_j1271310319672_2_alg».proof.Proof.Gen.KernelIdeal.Frame
import proofs.«137777_j1271310319672_2_alg».proof.Proof.Gen.ReferenceIdeal
import proofs.«137777_j1271310319672_2_alg».proof.Proof.Gen.ReferenceIdeal.Run
import proofs.«137777_j1271310319672_2_alg».proof.Proof.Gen.ReferenceIdeal.Read
import proofs.«137777_j1271310319672_2_alg».proof.Proof.Gen.Pre_finite_inputs
import proofs.«137777_j1271310319672_2_alg».proof.Proof.KValue
import proofs.«137777_j1271310319672_2_alg».proof.Proof.Bridge
import proofs.«137777_j1271310319672_2_alg».proof.Proof.RefNet
import proofs.«137777_j1271310319672_2_alg».proof.Proof.Same
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Net

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The scale-then-one-product network of the kernel program's arguments is the divide-then-two-products
    network of the same arguments: the reciprocal column is one over the divisor, the divisor is nowhere
    zero, the stacked weights are the two transposes one above the other, the bias rows are the biases. -/
theorem kernel_net (x0 : Feat) (x1 : EdgeIdx) (x2 : Wt) (x3 : (⟨Cert.KernelIdeal.S64, .f32⟩ : BufTy).Contents (Elt Ideal))
    (x4 x5 : Wt) (x6 : (⟨Cert.KernelIdeal.S64, .f32⟩ : BufTy).Contents (Elt Ideal)) (x7 : Wt) :
    Cert.Sage.fusedNet (n := 100000) (aggOf (srcIds x1) (dstIds x1)) (recipOf (divisorOf (dstIds x1))) x0
        (stackedT x2 x4) (stackedT x5 x7) (asRow x3) (asRow x6)
      = Cert.Sage.net (n := 100000) (aggOf (srcIds x1) (dstIds x1)) (divisorOf (dstIds x1)) x0 x2 x4 x5 x7 x3 x6 :=
  Cert.Sage.fusedNet_eq_net (aggOf (srcIds x1) (dstIds x1)) (divisorOf (dstIds x1)) (recipOf (divisorOf (dstIds x1))) x0
    x2 x4 x5 x7 x3 x6 (stackedT x2 x4) (stackedT x5 x7) (asRow x3) (asRow x6)
    (fun r => Cert.Sage.recip_apply (divisorOf (dstIds x1)) Cert.KernelIdeal.Facts₀.bcast_S_S100000x1 r)
    (fun r => Cert.Sage.max_one_ne_zero (countOf (dstIds x1)) Cert.KernelIdeal.Facts₀.bcast_S_S100000x1 r)
    (fun k j => Cert.Sage.stackedT_apply x2 x4 Cert.KernelIdeal.Facts₀.transposes_S64x64_S64x64_1_0
      Cert.KernelIdeal.Facts₀.concatenates_S64x64_S64x64_S128x64_d0 k j)
    (fun j => Cert.Sage.asRow_apply x3 Cert.KernelIdeal.Facts₀.shapeCasts_S64_S1x64 j)
    (fun k j => Cert.Sage.stackedT_apply x5 x7 Cert.KernelIdeal.Facts₀.transposes_S64x64_S64x64_1_0
      Cert.KernelIdeal.Facts₀.concatenates_S64x64_S64x64_S128x64_d0 k j)
    (fun j => Cert.Sage.asRow_apply x6 Cert.KernelIdeal.Facts₀.shapeCasts_S64_S1x64 j)

/-- From memories that agree on the arguments both idealized programs run, and both end with the result
    array holding the divide-then-two-products network of the arguments. -/
theorem algebraic : Cert.algebraic_KernelIdeal_ReferenceIdeal := by
  intro m ρ m' ρ' _ hagree
  refine ⟨fun c => Cert.Sage.net (n := 100000)
      (aggOf (srcIds (m ((c.tc : Thread Cert.KernelIdeal.nD Cert.KernelIdeal.τ).loc Cert.KernelIdeal.main_arg1))) (dstIds (m ((c.tc : Thread Cert.KernelIdeal.nD Cert.KernelIdeal.τ).loc Cert.KernelIdeal.main_arg1)))) (divisorOf (dstIds (m ((c.tc : Thread Cert.KernelIdeal.nD Cert.KernelIdeal.τ).loc Cert.KernelIdeal.main_arg1))))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Net.run_result (F := Ideal) m ρ)
    exact (Cert.KernelIdeal.Net.result_eq m ρ c).trans (kernel_net _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq, Cert.ReferenceIdeal.RefNet.val_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2,
      Cert.Proof.Same.agg_same, Cert.Proof.Same.cmax_same]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
